-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x4096 .f32) (main_arg1 : FVec F S4096x4096 .f32) (main_arg2 : FVec F S4096 .f32) (main_arg3 : FVec F S4096 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4096x4096 : Shape := ⟨2, ![4096, 4096]⟩
abbrev S4096 : Shape := ⟨1, ![4096]⟩
abbrev S512x4096 : Shape := ⟨2, ![512, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x4096, .bf16⟩
  | .hbm, ⟨6, _⟩ => ⟨S4096x4096, .bf16⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  natLt_1_32 : 1 < 32
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S4096x4096.size a
  hwx1_5 : ∀ i : grid1.Coords, EltTy.bits .f32 = 32 ∨ (Rect.block (s := S4096x4096) S1024x1024.size (cc1_transform_5 i) (hinb1_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S4096, .i1⟩
  | .hbm, ⟨25, _⟩ => ⟨S4096, .f32⟩
  | .hbm, ⟨26, _⟩ => ⟨S1x4096, .f32⟩
  | .hbm, ⟨27, _⟩ => ⟨S_, .f32⟩
  | .hbm, ⟨28, _⟩ => ⟨S1x4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S1x4096, .f32⟩
  | .hbm, ⟨33, _⟩ => ⟨S_, .f32⟩
  | .hbm, ⟨34, _⟩ => ⟨S1x4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S1x4096, .f32⟩
  | .hbm, ⟨39, _⟩ => ⟨S4096x4096, .f32⟩
  | .hbm, ⟨40, _⟩ => ⟨S4096x4096, .i1⟩
  | .hbm, ⟨41, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_3 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S_S4096 : S_.BroadcastsInDim S4096 (![] : Fin 0 → Fin S4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KRun.lean ====
/-
  The idealized kernel's run with its RESULT named. The program is two pipelined regions with four host operations
  between them; the buffer contents at the end are the fold `W3` through those three segments, and every unscoped
  buffer — the result array among them — is read back at that fold when the last segment ends. So every weakly fair
  execution terminates with the result array at `W3`'s value there and the five argument arrays as launched.
-/
import proofs.«163502_j22660247454003_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array holding what the
    second region's write-backs leave in it and the argument arrays unchanged. -/
theorem run : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-- The result array at the end is the second region's output array after its last point. -/
theorem result_eq (c : Dev nD) : W3 m ρ c (Proc.devRef .tc main_v5) = (dat1 (V2 m ρ) c).arrAt 5 cfg1.N :=
  W3_arr m ρ c 5

end Cert.KernelIdeal.Whole

end
-- ==== Proof.Spec.lean ====
/-
  The mathematics of the spiking layer, stated once over the extended reals and over no program.

  A synaptic state `s` is ternarised to a weight: `+1` above `1`, `-1` below `-1`, `0` between. A batch row
  `b` of 0/1 spikes drives output neuron `o` with the current `∑ₖ spike[b,k] · w[o,k]`; a neuron whose refractory
  count is positive receives none of it (the current is multiplied by `1 - [refc > 0]`); the membrane decays by the
  shared factor and adds the current, and the neuron fires (`1`) when that reaches its threshold, else stays silent
  (`0`). Two spellings of the weight (a difference of two indicators; a nested choice) and two spellings of an
  indicator's value (the bit read unsigned; the bit widened to 32 bits and read signed) are shown to agree, and a sum
  over 4096 contraction positions is cut into four consecutive runs of 1024.
-/
import Idealize.ShloMosaic.PureOps.Ideal
import Idealize.ShloMosaic.PureOps.Ideal.Laws
import Idealize.ShloMosaic.PureOps.IdealRules
import Idealize.ShloMosaic.Lib.ValueIdx

noncomputable section

namespace Cert.Spec

open Idealize.ShloMosaic Idealize.ShloMosaic.ValueIdx

/-- The square arrays (spikes, synaptic states, the result) and the per-neuron vectors. -/
abbrev SQ : Shape := ⟨2, ![4096, 4096]⟩
abbrev SV : Shape := ⟨1, ![4096]⟩

/-- A truth bit as a number: `1` for true, `0` for false. -/
def ind (b : BitVec 1) : EReal := ((b.toNat : ℝ) : EReal)

theorem ind_one : ind 1#1 = 1 := by simp [ind]
theorem ind_zero : ind 0#1 = 0 := by simp [ind]

/-- Widening the bit with zeros to 32 bits and reading it as a signed integer gives the same number. -/
theorem sitofp_extui (b : BitVec 1) : (((b.setWidth 32).toInt : ℝ) : EReal) = ind b := by
  have h : ∀ c : BitVec 1, (c.setWidth 32).toInt = (c.toNat : ℤ) := by decide
  unfold ind
  rw [h b]
  norm_cast

theorem one_eq : Ideal.ofBits .f32 0x3F800000#32 = 1 := IdealRules.sign_bit.ideal_onePat .f32
theorem negOne_eq : Ideal.ofBits .f32 0xBF800000#32 = -1 := IdealRules.sign_bit.ideal_negOnePat .f32

/-- The ternary weight of a synaptic state, as a difference of two indicators. -/
def tern (s : EReal) : EReal :=
  ind (Ideal.cmp .ogt s (Ideal.ofBits .f32 0x3F800000#32)) - ind (Ideal.cmp .olt s (Ideal.ofBits .f32 0xBF800000#32))

/-- The same weight as a nested choice: `1` above `1`, else `-1` below `-1`, else `0`. -/
theorem tern_eq_select (s : EReal) :
    Scalar.select (Ideal.cmp .ogt s (Ideal.ofBits .f32 0x3F800000#32)) (Ideal.ofBits .f32 0x3F800000#32)
      (Scalar.select (Ideal.cmp .olt s (Ideal.ofBits .f32 0xBF800000#32)) (Ideal.ofBits .f32 0xBF800000#32)
        (Ideal.ofBits .f32 0x00000000#32)) = tern s := by
  unfold tern
  simp only [one_eq, negOne_eq, Ideal.ofBits_zero_f32, Ideal.cmp, Scalar.select]
  by_cases h1 : (1 : EReal) < s
  · have hm : (-1 : EReal) < 1 := by
      have : ((-1 : ℝ) : EReal) < ((1 : ℝ) : EReal) := EReal.coe_lt_coe_iff.mpr (by norm_num)
      simpa using this
    have h2 : ¬ s < -1 := not_lt.mpr (hm.trans h1).le
    simp [h1, h2, ind_one, ind_zero]
  · by_cases h2 : s < -1
    · simp [h1, h2, ind_one, ind_zero]
    · simp [h1, h2, ind_one, ind_zero]

/-- Whether a neuron fires: its decayed membrane plus the current it is allowed to receive, against its threshold. -/
def fire (cur mem thr refc : EReal) : EReal :=
  ind (Ideal.cmp .oge
    (mem * Ideal.ofBits .f32 0x3F4CCCCD#32
      + cur * (Ideal.ofBits .f32 0x3F800000#32 - ind (Ideal.cmp .ogt refc (Ideal.ofBits .f32 0x00000000#32)))) thr)

/-- The current into neuron `o` from batch row `b`. -/
def current (spike w : SQ.Idx → EReal) (b o : Fin 4096) : EReal :=
  ∑ k : Fin 4096, spike (ix2 b k) * w (ix2 o k)

/-- The layer: the spikes each neuron emits for each batch row. -/
def layer (spike syn : SQ.Idx → EReal) (mem thr refc : SV.Idx → EReal) : SQ.Idx → EReal := fun i =>
  fire (current spike (fun j => tern (syn j)) (i 0) (i 1)) (mem (ix1 (i 1))) (thr (ix1 (i 1))) (refc (ix1 (i 1)))

/-- Position `s·1024 + k` of the contraction axis, for run `s` of four and place `k` within it. -/
def kpos (s : Fin 4) (k : Fin 1024) : Fin 4096 := ⟨s.val * 1024 + k.val, by have := s.isLt; have := k.isLt; omega⟩

/-- A sum over the 4096 contraction positions is the sum, over the four consecutive runs, of each run's 1024 terms. -/
theorem sum_runs {M : Type*} [AddCommMonoid M] (f : Fin 4096 → M) :
    ∑ k : Fin 4096, f k = ∑ s : Fin 4, ∑ k : Fin 1024, f (kpos s k) := by
  rw [← Finset.sum_product']
  refine (Fintype.sum_equiv (finProdFinEquiv (m := 4) (n := 1024)) _ _ fun p => ?_).symm
  refine congrArg f (Fin.ext ?_)
  show p.1.val * 1024 + p.2.val = (finProdFinEquiv p).val
  simp [finProdFinEquiv]
  omega

end Cert.Spec

end
-- ==== Proof.Tern.lean ====
/-
  The value of the ternarising region: the weight array it leaves is the ternary weight of every synaptic state.

  The region walks the 4096 rows of the synaptic-state array in eight consecutive runs of 512 rows. At each run it reads
  the run's rows, replaces every state `s` by `[s > 1] - [s < -1]`, and writes the rows to the same place of the weight
  array. So each run's rows of the weight array are the ternary weights of the same rows of the states, the eight runs
  cover every row, and the weight array ends holding the ternary weight of the state array index by index.
-/
import proofs.«163502_j22660247454003_2_alg».proof.Proof.Gen.KernelIdeal.Frame
import proofs.«163502_j22660247454003_2_alg».proof.Proof.Spec
import Idealize.ShloMosaic.Lib.Pipeline.Value
import Idealize.ShloMosaic.Lib.ValueIdx

noncomputable section

namespace Cert.KernelIdeal.TernValue

open Cert.KernelIdeal Cert.KernelIdeal.Gen Idealize.ShloMosaic Idealize.ShloMosaic.TcCoe Idealize.SL.Sem
open Idealize.ShloMosaic.Pipeline (Dat)

/-- At one position of a run of rows, the body's result is the ternary weight of the state read there: each comparison's
    truth bit, widened with zeros and read as a signed number, is its indicator, and narrowing that number changes nothing. -/
theorem payload_apply (x0 : Vec Ideal S512x4096 .f32) (y : S512x4096.Idx) :
    k0_pay1 (F := Ideal) x0 y = Cert.Spec.tern (x0 y) := by
  unfold k0_pay1 Cert.Spec.tern
  show (((((Ideal.cmp .ogt (x0 y) (Ideal.ofBits .f32 0x3F800000#32)).setWidth 32).toInt : ℝ) : EReal)
      - ((((Ideal.cmp .olt (x0 y) (Ideal.ofBits .f32 0xBF800000#32)).setWidth 32).toInt : ℝ) : EReal))
    = _
  rw [Cert.Spec.sitofp_extui, Cert.Spec.sitofp_extui]

variable (V : (c : Dev nD) → (b : Ref sig .tc) → Buf (Elt Ideal) ((c : Thread nD τ).loc b))

theorem zero_offsets : (![0, 0] : Fin 2 → Nat) = fun _ => 0 := funext fun a => by fin_cases a <;> rfl

/-- Where the two windows sit at each of the eight runs, decided over the runs: run `t` reads block row `t` of the states
    and writes block row `t` of the weights, and both take block column `0` (all 4096 columns). -/
theorem run_blocks : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What run `t` writes to the weight array is run `t`'s rows of the ternary weights of the states: the body's result at a
    position is the ternary weight of the state read at that position, and the state read at position `j` of the run
    is the one at the same row and column as the weight written from position `j`. -/
theorem flushed_eq (c : Dev nD) (t : Fin cfg0.N) :
    (dat0 (F := Ideal) V c).flushed 1 t
      = ((cfg0.win 1).blk t).view.read (Elt Ideal) (fun i => Cert.Spec.tern (V c main_arg1 i)) := by
  show (cfg0.win 1).cut (grid0.coords t) ((dat0 V c).after 1 t) = _
  rw [after0_1]
  unfold out0_1
  rw [View.canon_unit_zero zero_offsets]
  simp only [View.ld_unit_zero (S := S512x4096) zero_offsets]
  obtain ⟨e0, e1, e2, e3⟩ := run_blocks t
  funext j
  refine (payload_apply (iblk0 V c 0 t) j).trans ?_
  show Cert.Spec.tern (V c main_arg1 (((cfg0.win 0).blk t).view.emb j))
    = Cert.Spec.tern (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the weight array is in run `t`'s block iff each coordinate is in the block's range on its axis. -/
theorem mem_run (t : Fin cfg0.N) (i : S4096x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0).slice (win0_1.rect t)).set ↔ _
  rw [View.set_slice_whole, Rect.mem_set_unit]
  exact Iff.rfl

/-- The eight runs cover the weight array: row `r` is in the block of run `r / 512`, whose columns are all 4096. -/
theorem covered (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ : ∃ t : Fin cfg0.N, t.val = (i 0).val / 512 :=
    ⟨⟨(i 0).val / 512, by rw [show cfg0.N = 8 from N_0]; omega⟩, rfl⟩
  obtain ⟨e0, e1, e2, e3⟩ := run_blocks t
  refine ⟨t, flush0_1 t, ?_⟩
  rw [mem_run]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- THE WEIGHT ARRAY after the region, whatever the arrays held when it was entered: the ternary weight of the state
    array, index by index. -/
theorem weights (c : Dev nD) :
    (dat0 (F := Ideal) V c).arrAt 1 cfg0.N = fun i => Cert.Spec.tern (V c main_arg1 i) :=
  (dat0 V c).arrAt_eq_of_cover 1 (fun i => Cert.Spec.tern (V c main_arg1 i)) (fun t _ => flushed_eq V c t) covered

end Cert.KernelIdeal.TernValue

end
-- ==== Proof.Entry.lean ====
/-
  What the matrix region finds in its arrays when it is entered, in terms of the launch arrays.
  Between the two regions four host operations run: the spike array is narrowed to the matrix unit's format (no change
  of value over the extended reals) and the three per-neuron vectors are recast as one-row arrays (entry `(0, q)` is
  the vector's entry `q`). The weight array is what the ternarising region left: the ternary weight of every synaptic
  state. No host operation and no region writes an argument array before the matrix region reads it.
-/
import proofs.«163502_j22660247454003_2_alg».proof.Proof.KRun
import proofs.«163502_j22660247454003_2_alg».proof.Proof.Tern
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx

namespace Cert.KernelIdeal.Entry

open Cert.KernelIdeal Cert.KernelIdeal.Gen

variable (m : (ℓ : Loc nD τ sig) → Buf (Elt Ideal) ℓ) (ρ : Dev nD → PrngReg)

/-- The spike array as the matrix region finds it: the launch spikes. -/
theorem spikes (c : Dev nD) :
    (V2 m ρ c main_v1 : S4096x4096.Idx → EReal) = fun i => m ((c.tc : Thread nD τ).loc main_arg0) i := by
  show StableHlo.after hostOps1 (W1 m ρ c) (Proc.devRef .tc main_v1) = _
  after_results
  rw [W1_of_ne m ρ c main_arg0 (by decide)]
  rfl

/-- The weight array as the matrix region finds it: the ternary weight of each launch synaptic state. -/
theorem weights (c : Dev nD) :
    (V2 m ρ c main_v0 : S4096x4096.Idx → EReal) = fun i => Cert.Spec.tern (m ((c.tc : Thread nD τ).loc main_arg1) i) := by
  have h : (V2 m ρ c main_v0 : S4096x4096.Idx → EReal) = W1 m ρ c (Proc.devRef .tc main_v0) := by
    show StableHlo.after hostOps1 (W1 m ρ c) (Proc.devRef .tc main_v0) = _
    after_results
  rw [h]
  exact (W1_arr m ρ c 1).trans (Cert.KernelIdeal.TernValue.weights (V0 m ρ) c)

/-- The membrane row: entry `(0, q)` is the launch membrane potential of neuron `q`. -/
theorem membrane (c : Dev nD) (u : Fin 1) (q : Fin 4096) :
    (V2 m ρ c main_v2 : S1x4096.Idx → EReal) (ix2 u q) = m ((c.tc : Thread nD τ).loc main_arg2) (ix1 q) := by
  have h : (V2 m ρ c main_v2 : S1x4096.Idx → EReal)
      = shapeCast S1x4096 (W1 m ρ c (Proc.devRef .tc main_arg2)) shapeCasts_S4096_S1x4096 := by
    show StableHlo.after hostOps1 (W1 m ρ c) (Proc.devRef .tc main_v2) = _
    after_results
    rfl
  rw [h, shapeCast_a_1a_apply, W1_of_ne m ρ c main_arg2 (by decide)]

/-- The threshold row likewise. -/
theorem threshold (c : Dev nD) (u : Fin 1) (q : Fin 4096) :
    (V2 m ρ c main_v3 : S1x4096.Idx → EReal) (ix2 u q) = m ((c.tc : Thread nD τ).loc main_arg3) (ix1 q) := by
  have h : (V2 m ρ c main_v3 : S1x4096.Idx → EReal)
      = shapeCast S1x4096 (W1 m ρ c (Proc.devRef .tc main_arg3)) shapeCasts_S4096_S1x4096 := by
    show StableHlo.after hostOps1 (W1 m ρ c) (Proc.devRef .tc main_v3) = _
    after_results
    rfl
  rw [h, shapeCast_a_1a_apply, W1_of_ne m ρ c main_arg3 (by decide)]

/-- The refractory-count row likewise. -/
theorem refractory (c : Dev nD) (u : Fin 1) (q : Fin 4096) :
    (V2 m ρ c main_v4 : S1x4096.Idx → EReal) (ix2 u q) = m ((c.tc : Thread nD τ).loc main_arg4) (ix1 q) := by
  have h : (V2 m ρ c main_v4 : S1x4096.Idx → EReal)
      = shapeCast S1x4096 (W1 m ρ c (Proc.devRef .tc main_arg4)) shapeCasts_S4096_S1x4096 := by
    show StableHlo.after hostOps1 (W1 m ρ c) (Proc.devRef .tc main_v4) = _
    after_results
    rfl
  rw [h, shapeCast_a_1a_apply, W1_of_ne m ρ c main_arg4 (by decide)]

end Cert.KernelIdeal.Entry

end
-- ==== Proof.Cases.lean ====
/-
  What one grid point of the matrix region leaves in the output block's staging buffer, case by case, as a value.
  At the first contraction step the body stores a zero block, reads it back and adds the step's product to it; at a
  middle step it adds the step's product to what the step before left; at the last step it does that and then stores
  the epilogue of the sum it has just stored. Each stored block covers the whole buffer, so the last store is what
  remains, and a read-back of a covering store is the stored value.
-/
import proofs.«163502_j22660247454003_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- A middle step: the buffer held `xo5`; it ends holding `xo5` plus the product of the two operand blocks. -/
theorem out_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : ¬cond1_1 i) (x0 : Vec F S1024x1024 .bf16) (x1 : Vec F S1024x1024 .bf16) (x2 : Vec F S1x1024 .f32) (x3 : Vec F S1x1024 .f32) (x4 : Vec F S1x1024 .f32) (xo5 : Vec F S1024x1024 .f32) :
    out1_B_5 c i arg3 harg3 arg4 harg4 arg5 harg5 arg6 harg6 arg7 harg7 arg8 harg8 hc0 hc1 x0 x1 x2 x3 x4 xo5 = k1_pay2 x0 x1 xo5 := by
  unfold out1_B_5
  rw [View.read_writes_eq_canon _ _ _ (cover1_B_5 c i arg3 harg3 arg4 harg4 arg5 harg5 arg6 harg6 arg7 harg7 arg8 harg8 hc0 hc1 x0 x1 x2 x3 x4 xo5)]
  unfold kernelRun1_B
  dsimp only
  rw [View.canon_unit_zero hz]
  simp only [View.readAt_eq_ld, harg3.read_unread, harg4.read_unread, harg8.read_unread,
    View.ld_unit_zero (S := S1024x1024) hz]

/-- The first step: the zero block, then the zero block plus the product. -/
theorem out_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i) (x0 : Vec F S1024x1024 .bf16) (x1 : Vec F S1024x1024 .bf16) (x2 : Vec F S1x1024 .f32) (x3 : Vec F S1x1024 .f32) (x4 : Vec F S1x1024 .f32) :
    out1_A_5 c i arg3 harg3 arg4 harg4 arg5 harg5 arg6 harg6 arg7 harg7 arg8 harg8 hc0 hc1 x0 x1 x2 x3 x4 = k1_pay2 x0 x1 (k1_pay1 (F := F)) := by
  unfold out1_A_5
  rw [View.read_writes_eq_canon _ _ _ (cover1_A_5 c i arg3 harg3 arg4 harg4 arg5 harg5 arg6 harg6 arg7 harg7 arg8 harg8 hc0 hc1 x0 x1 x2 x3 x4)]
  unfold kernelRun1_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- The last step: the sum is completed, and the epilogue of the completed sum replaces it. -/
theorem out_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i) (x0 : Vec F S1024x1024 .bf16) (x1 : Vec F S1024x1024 .bf16) (x2 : Vec F S1x1024 .f32) (x3 : Vec F S1x1024 .f32) (x4 : Vec F S1x1024 .f32) (xo5 : Vec F S1024x1024 .f32) :
    out1_C_5 c i arg3 harg3 arg4 harg4 arg5 harg5 arg6 harg6 arg7 harg7 arg8 harg8 hc0 hc1 x0 x1 x2 x3 x4 xo5 = k1_pay3 (k1_pay2 x0 x1 xo5) x4 x2 x3 := by
  unfold out1_C_5
  rw [View.read_writes_eq_canon _ _ _ (cover1_C_5 c i arg3 harg3 arg4 harg4 arg5 harg5 arg6 harg6 arg7 harg7 arg8 harg8 hc0 hc1 x0 x1 x2 x3 x4 xo5)]
  unfold kernelRun1_C
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread,
    harg7.read_unread, harg8.read_unread, View.ld_unit_zero (S := S1024x1024) hz, View.ld_unit_zero (S := S1x1024) hz]

end Cert.KernelIdeal.Cases

end
-- ==== Proof.Accum.lean ====
/-
  The output block's staging buffer along the grid. The 64 points run the contraction step fastest: points
  `4u, 4u+1, 4u+2, 4u+3` are the four steps of one output block. `part` is the running sum: at a first step the zero
  block plus that step's product, at a later step the running sum of the step before plus this step's product. What
  the buffer holds after a point is `part` there, except after a last step, where it is the epilogue of `part`
  (the neurons' firing decisions) — by induction on the point, never by listing the grid.
-/
import proofs.«163502_j22660247454003_2_alg».proof.Proof.Cases

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Cases

variable {F : FTy → Type} [FloatOps F]
variable (V : (c : Dev nD) → (b : Ref sig .tc) → Buf (Elt F) ((c : Thread nD τ).loc b))

/-- The running sum after point `n`. -/
def part (c : Dev nD) : (n : ℕ) → n < cfg1.N → Vec F S1024x1024 .f32
  | 0, h => k1_pay2 (iblk1 V c 0 ⟨0, h⟩) (iblk1 V c 1 ⟨0, h⟩) (k1_pay1 (F := F))
  | n + 1, h =>
    if (n + 1) % 4 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (part c n (Nat.lt_of_succ_lt h))

/-- At a first step the running sum restarts from the zero block. -/
theorem part_first (c : Dev nD) (n : ℕ) (h : n < cfg1.N) (h0 : n % 4 = 0) :
    part V c n h = k1_pay2 (iblk1 V c 0 ⟨n, h⟩) (iblk1 V c 1 ⟨n, h⟩) (k1_pay1 (F := F)) := by
  cases n with
  | zero => rfl
  | succ n => exact if_pos h0

/-- At a later step it adds this step's product to the sum of the step before. -/
theorem part_later (c : Dev nD) (n : ℕ) (h : n + 1 < cfg1.N) (h0 : ¬(n + 1) % 4 = 0) :
    part V c (n + 1) h
      = k1_pay2 (iblk1 V c 0 ⟨n + 1, h⟩) (iblk1 V c 1 ⟨n + 1, h⟩) (part V c n (Nat.lt_of_succ_lt h)) :=
  if_neg h0

/-- What the staging buffer holds after point `n`: the running sum, or after a last step its epilogue. -/
theorem outsAt_eq (c : Dev nD) : ∀ (n : ℕ) (h : n < cfg1.N),
    outsAt1 V c n h
      = if n % 4 = 3 then k1_pay3 (part V c n h) (iblk1 V c 4 ⟨n, h⟩) (iblk1 V c 2 ⟨n, h⟩) (iblk1 V c 3 ⟨n, h⟩)
        else part V c n h
  | 0, h => by
    rw [if_neg (by decide)]
    exact (outsAt1_A V c ⟨0, h⟩ rfl (by show ¬(0 : ℕ) % 4 = 3; decide)).trans (out_A ..)
  | n + 1, h => by
    have ih := outsAt_eq c n (Nat.lt_of_succ_lt h)
    by_cases h0 : (n + 1) % 4 = 0
    · have h3 : ¬(n + 1) % 4 = 3 := by omega
      rw [if_neg h3, outsAt1_A V c ⟨n + 1, h⟩ h0 h3, out_A, part_first V c (n + 1) h h0]
    · by_cases h3 : (n + 1) % 4 = 3
      · have hn : ¬n % 4 = 3 := by omega
        rw [if_pos h3, outsAt1_C V c ⟨n + 1, h⟩ h0 h3, out_C, part_later V c n h h0]
        show k1_pay3 (k1_pay2 _ _ (outsAt1 V c n _)) _ _ _ = _
        rw [ih, if_neg hn]
      · have hn : ¬n % 4 = 3 := by omega
        rw [if_neg h3, outsAt1_B V c ⟨n + 1, h⟩ h0 h3, out_B, part_later V c n h h0]
        show k1_pay2 _ _ (outsAt1 V c n _) = _
        rw [ih, if_neg hn]

end Cert.KernelIdeal.Accum

end
-- ==== Proof.Payload.lean ====
/-
  The matrix region's three stored values read at an entry, over the extended reals.
  The zero block is `0` everywhere. A contraction step adds to the running block, at entry `(p, q)`, the product
  `∑ₖ a[p,k] · b[q,k]` of the spike block's row `p` and the weight block's row `q` (both operands are contracted on
  their second axis). The epilogue at `(p, q)` is the firing decision of neuron `q` from the completed sum there and
  the neuron's membrane, threshold and refractory count (three one-row blocks spread over the 1024 batch rows).
-/
import proofs.«163502_j22660247454003_2_alg».proof.Proof.Gen.KernelIdeal.Skeleton
import proofs.«163502_j22660247454003_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen Cert.Spec

/-- The zero block. -/
theorem zero_apply (y : S1024x1024.Idx) : k1_pay1 (F := Ideal) y = 0 := by
  unfold k1_pay1
  show Ideal.ofBits .f32 0x00000000#32 = 0
  exact Ideal.ofBits_zero_f32

/-- The operand indices of the product at output entry `j` and contraction index `q`, coordinate by coordinate: the
    left operand is read at `(j₀, q)`, the right at `(j₁, q)`. -/
theorem lhs_0 (j : S1024x1024.Idx) (q : dot_S1024x1024_S1024x1024_S1024x1024_1_1_0_0_n_n.contr.Idx) : (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (j : S1024x1024.Idx) (q : dot_S1024x1024_S1024x1024_S1024x1024_1_1_0_0_n_n.contr.Idx) : (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_0 (j : S1024x1024.Idx) (q : dot_S1024x1024_S1024x1024_S1024x1024_1_1_0_0_n_n.contr.Idx) : (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (j : S1024x1024.Idx) (q : dot_S1024x1024_S1024x1024_S1024x1024_1_1_0_0_n_n.contr.Idx) : (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- A contraction step at an entry: the running value there plus the two rows' product. -/
theorem step_apply (a b : Vec Ideal S1024x1024 .bf16) (acc : Vec Ideal S1024x1024 .f32) (j : S1024x1024.Idx) :
    k1_pay2 a b acc j = acc j + ∑ k : Fin 1024, a (ix2 (j 0) k) * b (ix2 (j 1) k) := by
  unfold k1_pay2
  simp only [shapeCast_self]
  rw [addf_apply]
  refine congrArg (acc j + ·) ?_
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx j ((contrEquiv1 dot_S1024x1024_S1024x1024_S1024x1024_1_1_0_0_n_n 1024 rfl rfl).symm k) = ix2 (n0 := 1024) (n1 := 1024) (j 0) k := funext fun x => Fin.ext (by
    match x with
    | ⟨0, _⟩ => exact lhs_0 _ _
    | ⟨1, _⟩ => exact (lhs_1 _ _).trans hk)
  have er : dot_S1024x1024_S1024x1024_S1024x1024_1_1_0_0_n_n.rhsIdx j ((contrEquiv1 dot_S1024x1024_S1024x1024_S1024x1024_1_1_0_0_n_n 1024 rfl rfl).symm k) = ix2 (n0 := 1024) (n1 := 1024) (j 1) k := funext fun x => Fin.ext (by
    match x with
    | ⟨0, _⟩ => exact rhs_0 _ _
    | ⟨1, _⟩ => exact (rhs_1 _ _).trans hk)
  rw [el, er]

/-- A truth bit widened to 32 bits and converted as a signed integer is its indicator. -/
theorem sitofp_bit (b : BitVec 1) : FloatOps.sitofp (F := Ideal) .f32 (b.setWidth 32) = ind b := sitofp_extui b

/-- The epilogue at entry `(p, q)`: neuron `q`'s firing decision from the completed sum there. -/
theorem epilogue_apply (acc : Vec Ideal S1024x1024 .f32) (refc mem thr : Vec Ideal S1x1024 .f32) (p q : Fin 1024) :
    k1_pay3 acc refc mem thr (ix2 p q)
      = fire (acc (ix2 p q)) (mem (ix2 (0 : Fin 1) q)) (thr (ix2 (0 : Fin 1) q)) (refc (ix2 (0 : Fin 1) q)) := by
  unfold k1_pay3
  simp only [shapeCast_self]
  unfold fire
  rw [sitofp_apply, extui_apply, cmpf_apply, addf_apply, mulf_apply, broadcastTo_1b_ab_apply, broadcastTo_1b_ab_apply,
    broadcastTo_1b_ab_apply, mulf_apply, subf_apply, sitofp_apply, extui_apply, cmpf_apply]
  rw [sitofp_bit, sitofp_bit]
  rfl

end Cert.KernelIdeal.Payload

end
-- ==== Proof.Blocks.lean ====
/-
  Where the matrix region's blocks sit in their arrays. The 64 grid points are numbered `t = 16·i + 4·j + k` for the
  batch block `i`, the neuron block `j` and the contraction step `k` (each below 4). At point `t` the spike block
  is rows `1024·i ..` and columns `1024·k ..` of the spike array, the weight block rows `1024·j ..` and columns
  `1024·k ..` of the weight array, the three per-neuron blocks columns `1024·j ..` of their one-row arrays, and the
  output block rows `1024·i ..` and columns `1024·j ..` of the result. An entry of a block is the array's entry at
  block index × block size + the coordinate inside the block, axis by axis.
-/
import proofs.«163502_j22660247454003_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (V : (c : Dev nD) → (b : Ref sig .tc) → Buf (Elt F) ((c : Thread nD τ).loc b))

/-- The block indices of the six windows at every grid point, decided once over the grid. -/
theorem grid_blocks : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = 0 ∧ win1_3.index t (1 : Fin 2) = t.val / 4 % 4
    ∧ win1_4.index t (0 : Fin 2) = 0 ∧ win1_4.index t (1 : Fin 2) = t.val / 4 % 4
    ∧ win1_5.index t (0 : Fin 2) = t.val / 16 ∧ win1_5.index t (1 : Fin 2) = t.val / 4 % 4 :=
  (by decide +kernel : ∀ t : Fin grid1.N, _)

/-- The spike block at point `t`, at `(p, k)`: the spike array at row `1024·i + p`, column `1024·k' + k`. -/
theorem spike_block (c : Dev nD) (t : Fin cfg1.N) (p k : Fin 1024) (P K : Fin 4096)
    (hP : P.val = 1024 * (t.val / 16) + p.val) (hK : K.val = 1024 * (t.val % 4) + k.val) :
    (show Vec F S1024x1024 .bf16 from iblk1 V c 0 t) (ix2 p k) = V c main_v1 (ix2 P K) := by
  obtain ⟨e0, e1, -⟩ := grid_blocks t
  show V c main_v1 (((cfg1.win 0).blk t).view.emb (ix2 p k)) = _
  refine congrArg (V c main_v1) (funext fun a => Fin.ext ?_)
  match a with
  | ⟨0, _⟩ => show win1_0.index t (0 : Fin 2) * 1024 + 1 * p.val = P.val; omega
  | ⟨1, _⟩ => show win1_0.index t (1 : Fin 2) * 1024 + 1 * k.val = K.val; omega

/-- The weight block at point `t`, at `(q, k)`: the weight array at row `1024·j + q`, column `1024·k' + k`. -/
theorem weight_block (c : Dev nD) (t : Fin cfg1.N) (q k : Fin 1024) (Q K : Fin 4096)
    (hQ : Q.val = 1024 * (t.val / 4 % 4) + q.val) (hK : K.val = 1024 * (t.val % 4) + k.val) :
    (show Vec F S1024x1024 .bf16 from iblk1 V c 1 t) (ix2 q k) = V c main_v0 (ix2 Q K) := by
  obtain ⟨-, -, e0, e1, -⟩ := grid_blocks t
  show V c main_v0 (((cfg1.win 1).blk t).view.emb (ix2 q k)) = _
  refine congrArg (V c main_v0) (funext fun a => Fin.ext ?_)
  match a with
  | ⟨0, _⟩ => show win1_1.index t (0 : Fin 2) * 1024 + 1 * q.val = Q.val; omega
  | ⟨1, _⟩ => show win1_1.index t (1 : Fin 2) * 1024 + 1 * k.val = K.val; omega

/-- The membrane block at point `t`, at `(0, q)`: the one-row membrane array at column `1024·j + q`. -/
theorem mem_block (c : Dev nD) (t : Fin cfg1.N) (q : Fin 1024) (Q : Fin 4096)
    (hQ : Q.val = 1024 * (t.val / 4 % 4) + q.val) :
    (show Vec F S1x1024 .f32 from iblk1 V c 2 t) (ix2 (0 : Fin 1) q) = V c main_v2 (ix2 (0 : Fin 1) Q) := by
  obtain ⟨-, -, -, -, e0, e1, -⟩ := grid_blocks t
  show V c main_v2 (((cfg1.win 2).blk t).view.emb (ix2 (0 : Fin 1) q)) = _
  refine congrArg (V c main_v2) (funext fun a => Fin.ext ?_)
  match a with
  | ⟨0, _⟩ => show win1_2.index t (0 : Fin 2) * 1 + 1 * 0 = 0; omega
  | ⟨1, _⟩ => show win1_2.index t (1 : Fin 2) * 1024 + 1 * q.val = Q.val; omega

/-- The threshold block likewise. -/
theorem thr_block (c : Dev nD) (t : Fin cfg1.N) (q : Fin 1024) (Q : Fin 4096)
    (hQ : Q.val = 1024 * (t.val / 4 % 4) + q.val) :
    (show Vec F S1x1024 .f32 from iblk1 V c 3 t) (ix2 (0 : Fin 1) q) = V c main_v3 (ix2 (0 : Fin 1) Q) := by
  obtain ⟨-, -, -, -, -, -, e0, e1, -⟩ := grid_blocks t
  show V c main_v3 (((cfg1.win 3).blk t).view.emb (ix2 (0 : Fin 1) q)) = _
  refine congrArg (V c main_v3) (funext fun a => Fin.ext ?_)
  match a with
  | ⟨0, _⟩ => show win1_3.index t (0 : Fin 2) * 1 + 1 * 0 = 0; omega
  | ⟨1, _⟩ => show win1_3.index t (1 : Fin 2) * 1024 + 1 * q.val = Q.val; omega

/-- The refractory-count block likewise. -/
theorem refc_block (c : Dev nD) (t : Fin cfg1.N) (q : Fin 1024) (Q : Fin 4096)
    (hQ : Q.val = 1024 * (t.val / 4 % 4) + q.val) :
    (show Vec F S1x1024 .f32 from iblk1 V c 4 t) (ix2 (0 : Fin 1) q) = V c main_v4 (ix2 (0 : Fin 1) Q) := by
  obtain ⟨-, -, -, -, -, -, -, -, e0, e1, -⟩ := grid_blocks t
  show V c main_v4 (((cfg1.win 4).blk t).view.emb (ix2 (0 : Fin 1) q)) = _
  refine congrArg (V c main_v4) (funext fun a => Fin.ext ?_)
  match a with
  | ⟨0, _⟩ => show win1_4.index t (0 : Fin 2) * 1 + 1 * 0 = 0; omega
  | ⟨1, _⟩ => show win1_4.index t (1 : Fin 2) * 1024 + 1 * q.val = Q.val; omega

/-- Entry `(p, q)` of the output block at point `t` is the result array's entry `(1024·i + p, 1024·j + q)`. -/
theorem out_entry (t : Fin cfg1.N) (p q : Fin 1024) (P Q : Fin 4096)
    (hP : P.val = 1024 * (t.val / 16) + p.val) (hQ : Q.val = 1024 * (t.val / 4 % 4) + q.val) :
    ((cfg1.win 5).blk t).view.emb (ix2 p q) = (ix2 P Q : S4096x4096.Idx) := by
  obtain ⟨-, -, -, -, -, -, -, -, -, -, e0, e1⟩ := grid_blocks t
  refine funext fun a => Fin.ext ?_
  match a with
  | ⟨0, _⟩ => show win1_5.index t (0 : Fin 2) * 1024 + 1 * p.val = P.val; omega
  | ⟨1, _⟩ => show win1_5.index t (1 : Fin 2) * 1024 + 1 * q.val = Q.val; omega

end Cert.KernelIdeal.Blocks

end
-- ==== Proof.Final.lean ====
/-
  The matrix region's result array as one function of the arrays it finds.
  For output entry `(P, Q)` — batch row `P`, neuron `Q` — the four contraction steps of its block add, in order,
  the products over the four runs of 1024 contraction positions; over the extended reals that chain from zero is the
  one sum over all 4096 positions. The last step replaces the completed sum by the neuron's firing decision. The
  region writes an output block back after its last step only, those blocks tile the result array, and so the array
  ends holding, at every entry, the firing decision from the full current.
-/
import proofs.«163502_j22660247454003_2_alg».proof.Proof.Accum
import proofs.«163502_j22660247454003_2_alg».proof.Proof.Payload
import proofs.«163502_j22660247454003_2_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accum Cert.KernelIdeal.Payload Cert.KernelIdeal.Blocks Cert.Spec

variable (V : (c : Dev nD) → (b : Ref sig .tc) → Buf (Elt Ideal) ((c : Thread nD τ).loc b))

/-- The five arrays the region reads, as arrays of extended reals: spikes, weights, and the membrane, threshold and
    refractory-count rows. -/
abbrev spikeArr (c : Dev nD) : S4096x4096.Idx → EReal := V c main_v1
abbrev weightArr (c : Dev nD) : S4096x4096.Idx → EReal := V c main_v0
abbrev memRow (c : Dev nD) : S1x4096.Idx → EReal := V c main_v2
abbrev thrRow (c : Dev nD) : S1x4096.Idx → EReal := V c main_v3
abbrev refcRow (c : Dev nD) : S1x4096.Idx → EReal := V c main_v4

/-- The current into neuron `Q` from batch row `P`, over the arrays the region finds. -/
def cur (c : Dev nD) (P Q : Fin 4096) : EReal :=
  ∑ k : Fin 4096, spikeArr V c (ix2 P k) * weightArr V c (ix2 Q k)

/-- The region's result: at `(P, Q)` the firing decision of neuron `Q` from that current. -/
def result (c : Dev nD) : S4096x4096.Idx → EReal := fun i =>
  fire (cur V c (i 0) (i 1)) (memRow V c (ix2 (0 : Fin 1) (i 1))) (thrRow V c (ix2 (0 : Fin 1) (i 1)))
    (refcRow V c (ix2 (0 : Fin 1) (i 1)))

/-- One step's product at block entry `(p, q)`: row `p` of the spike block against row `q` of the weight block. -/
def prod (c : Dev nD) (t : Fin cfg1.N) (p q : Fin 1024) : EReal :=
  ∑ k : Fin 1024, (show Vec Ideal S1024x1024 .bf16 from iblk1 V c 0 t) (ix2 p k)
    * (show Vec Ideal S1024x1024 .bf16 from iblk1 V c 1 t) (ix2 q k)

/-- A first step leaves that step's product. -/
theorem part_start (c : Dev nD) (n : ℕ) (h : n < cfg1.N) (h0 : n % 4 = 0) (p q : Fin 1024) :
    part V c n h (ix2 p q) = prod V c ⟨n, h⟩ p q := by
  rw [part_first V c n h h0]
  refine (step_apply _ _ _ _).trans ?_
  rw [zero_apply, zero_add]
  rfl

/-- A later step adds its product to the running sum. -/
theorem part_step (c : Dev nD) (n : ℕ) (h : n + 1 < cfg1.N) (h0 : ¬(n + 1) % 4 = 0) (p q : Fin 1024) :
    part V c (n + 1) h (ix2 p q) = part V c n (Nat.lt_of_succ_lt h) (ix2 p q) + prod V c ⟨n + 1, h⟩ p q := by
  rw [part_later V c n h h0]
  exact step_apply _ _ _ _

/-- Step `s`'s product is the sum over run `s` of the contraction positions, in the arrays' own coordinates. -/
theorem prod_eq (c : Dev nD) (t : Fin cfg1.N) (s : Fin 4) (hs : t.val % 4 = s.val) (p q : Fin 1024) (P Q : Fin 4096)
    (hP : P.val = 1024 * (t.val / 16) + p.val) (hQ : Q.val = 1024 * (t.val / 4 % 4) + q.val) :
    prod V c t p q = ∑ k : Fin 1024, spikeArr V c (ix2 P (kpos s k)) * weightArr V c (ix2 Q (kpos s k)) := by
  unfold prod
  refine Finset.sum_congr rfl fun k _ => ?_
  exact congrArg₂ (fun x y : EReal => x * y)
    (spike_block V c t p k P (kpos s k) hP (by show s.val * 1024 + k.val = _; omega))
    (weight_block V c t q k Q (kpos s k) hQ (by show s.val * 1024 + k.val = _; omega))

/-- After the fourth step of a block the running sum at `(p, q)` is the full current at the entry's own row and neuron. -/
theorem part_full (c : Dev nD) (n : ℕ) (h : n + 3 < cfg1.N) (hn : n % 4 = 0) (p q : Fin 1024) (P Q : Fin 4096)
    (hP : P.val = 1024 * (n / 16) + p.val) (hQ : Q.val = 1024 * (n / 4 % 4) + q.val) :
    part V c (n + 3) h (ix2 p q) = cur V c P Q := by
  have hN : cfg1.N = 64 := N_1
  rw [part_step V c (n + 2) h (by omega), part_step V c (n + 1) (by omega) (by omega),
    part_step V c n (by omega) (by omega), part_start V c n (by omega) hn]
  rw [prod_eq V c ⟨n, by omega⟩ 0 (by show n % 4 = 0; exact hn) p q P Q (by show P.val = 1024 * (n / 16) + p.val; exact hP) (by show Q.val = 1024 * (n / 4 % 4) + q.val; exact hQ),
    prod_eq V c ⟨n + 1, by omega⟩ 1 (by show (n + 1) % 4 = 1; omega) p q P Q (by show P.val = 1024 * ((n + 1) / 16) + p.val; omega) (by show Q.val = 1024 * ((n + 1) / 4 % 4) + q.val; omega),
    prod_eq V c ⟨n + 2, by omega⟩ 2 (by show (n + 2) % 4 = 2; omega) p q P Q (by show P.val = 1024 * ((n + 2) / 16) + p.val; omega) (by show Q.val = 1024 * ((n + 2) / 4 % 4) + q.val; omega),
    prod_eq V c ⟨n + 3, h⟩ 3 (by show (n + 3) % 4 = 3; omega) p q P Q (by show P.val = 1024 * ((n + 3) / 16) + p.val; omega) (by show Q.val = 1024 * ((n + 3) / 4 % 4) + q.val; omega)]
  unfold cur
  rw [sum_runs (fun k => spikeArr V c (ix2 P k) * weightArr V c (ix2 Q k)), Fin.sum_univ_four]

/-- What a writing-back point writes is its block of `result`. -/
theorem flushed_eq (c : Dev nD) (t : Fin cfg1.N) (hf : (cfg1.win 5).flush t = true) :
    (dat1 (F := Ideal) V c).flushed 5 t = ((cfg1.win 5).blk t).view.read (Elt Ideal) (result V c) := by
  have hN : cfg1.N = 64 := N_1
  have h3 : t.val % 4 = 3 := (flush1_5 t).mp hf
  show (cfg1.win 5).cut (grid1.coords t) ((dat1 V c).after 5 t) = _
  rw [after1_5, outsAt_eq V c t.val t.isLt, if_pos h3]
  obtain ⟨tv, ht⟩ := t
  obtain ⟨n, rfl⟩ : ∃ n, tv = n + 3 := ⟨tv - 3, by dsimp only at h3; omega⟩
  have hn : n % 4 = 0 := by dsimp only at h3; omega
  funext j
  obtain ⟨p, q, rfl⟩ : ∃ (p q : Fin 1024), j = ix2 p q := ⟨j 0, j 1, eq_ix2 j⟩
  have hp : p.val < 1024 := p.isLt
  have hq : q.val < 1024 := q.isLt
  let P : Fin 4096 := ⟨1024 * (n / 16) + p.val, by omega⟩
  let Q : Fin 4096 := ⟨1024 * (n / 4 % 4) + q.val, by omega⟩
  have hP : P.val = 1024 * (n / 16) + p.val := rfl
  have hQ : Q.val = 1024 * (n / 4 % 4) + q.val := rfl
  refine (epilogue_apply _ _ _ _ p q).trans ?_
  rw [View.read_apply, out_entry ⟨n + 3, ht⟩ p q P Q (by show P.val = 1024 * ((n + 3) / 16) + p.val; omega)
    (by show Q.val = 1024 * ((n + 3) / 4 % 4) + q.val; omega)]
  have hQ' : Q.val = 1024 * ((n + 3) / 4 % 4) + q.val := by show 1024 * (n / 4 % 4) + q.val = _; omega
  show fire (part V c (n + 3) ht (ix2 p q)) ((show Vec Ideal S1x1024 .f32 from iblk1 V c 2 ⟨n + 3, ht⟩) (ix2 (0 : Fin 1) q))
      ((show Vec Ideal S1x1024 .f32 from iblk1 V c 3 ⟨n + 3, ht⟩) (ix2 (0 : Fin 1) q))
      ((show Vec Ideal S1x1024 .f32 from iblk1 V c 4 ⟨n + 3, ht⟩) (ix2 (0 : Fin 1) q))
    = fire (cur V c P Q) (memRow V c (ix2 (0 : Fin 1) Q)) (thrRow V c (ix2 (0 : Fin 1) Q)) (refcRow V c (ix2 (0 : Fin 1) Q))
  rw [part_full V c n ht hn p q P Q hP hQ, mem_block V c ⟨n + 3, ht⟩ q Q hQ', thr_block V c ⟨n + 3, ht⟩ q Q hQ',
    refc_block V c ⟨n + 3, ht⟩ q Q hQ']

/-- An index of the result array is in point `t`'s block iff each coordinate is in the block's range on its axis. -/
theorem mem_block_iff (t : Fin cfg1.N) (i : S4096x4096.Idx) :
    i ∈ ((cfg1.win 5).blk t).view.set ↔ ∀ a : Fin 2, win1_5.index t a * S1024x1024.size a ≤ (i a).val
      ∧ (i a).val < win1_5.index t a * S1024x1024.size a + S1024x1024.size a := by
  show i ∈ ((View.whole main_v5).slice (win1_5.rect t)).set ↔ _
  rw [View.set_slice_whole, Rect.mem_set_unit]
  exact Iff.rfl

/-- The writing-back points' blocks cover the result array: entry `(P, Q)` is in the block written after the last
    step of batch block `P / 1024` and neuron block `Q / 1024`. -/
theorem covered (i : S4096x4096.Idx) :
    ∃ t : Fin cfg1.N, (cfg1.win 5).flush t = true ∧ i ∈ ((cfg1.win 5).blk t).view.set := by
  have hi0 : (i 0).val < 4096 := (i 0).isLt
  have hi1 : (i 1).val < 4096 := (i 1).isLt
  obtain ⟨t, ht⟩ : ∃ t : Fin cfg1.N, t.val = 16 * ((i 0).val / 1024) + 4 * ((i 1).val / 1024) + 3 :=
    ⟨⟨16 * ((i 0).val / 1024) + 4 * ((i 1).val / 1024) + 3, by rw [show cfg1.N = 64 from N_1]; omega⟩, rfl⟩
  obtain ⟨-, -, -, -, -, -, -, -, -, -, e0, e1⟩ := grid_blocks t
  refine ⟨t, (flush1_5 t).mpr (by omega), ?_⟩
  rw [mem_block_iff]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 1024 ≤ (i 1).val ∧ (i 1).val < win1_5.index t (1 : Fin 2) * 1024 + 1024; omega

/-- The result array after the region, whatever its arrays held when it was entered. -/
theorem final (c : Dev nD) : (dat1 (F := Ideal) V c).arrAt 5 cfg1.N = result V c :=
  (dat1 V c).arrAt_eq_of_cover 5 (result V c) (flushed_eq V c) covered

end Cert.KernelIdeal.Final

end
-- ==== Proof.Bridge.lean ====
/-
  The idealized kernel's result, in terms of the launch arrays: the spiking layer of the specification.
  The result array ends at the matrix region's function of the arrays it finds; those are the launch spikes, the ternary
  weights of the launch synaptic states, and the three per-neuron vectors as rows — which is the layer, entry by entry.
-/
import proofs.«163502_j22660247454003_2_alg».proof.Proof.Entry
import proofs.«163502_j22660247454003_2_alg».proof.Proof.Final

set_option maxRecDepth 16384

noncomputable section

open Idealize.ShloMosaic Idealize.ShloMosaic.TcCoe Idealize.SL.Sem Idealize.ShloMosaic.ValueIdx

namespace Cert.KernelIdeal.Bridge

open Cert.KernelIdeal Cert.KernelIdeal.Gen

variable (m : (ℓ : Loc nD τ sig) → Buf (Elt Ideal) ℓ) (ρ : Dev nD → PrngReg)

theorem kernel_value (c : Dev nD) :
    (W3 m ρ c (Proc.devRef .tc main_v5) : S4096x4096.Idx → EReal)
      = Cert.Spec.layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [Cert.KernelIdeal.Whole.result_eq, Cert.KernelIdeal.Final.final (V2 m ρ) c]
  funext i
  unfold Cert.KernelIdeal.Final.result Cert.KernelIdeal.Final.cur Cert.Spec.layer Cert.Spec.current
  unfold Cert.KernelIdeal.Final.spikeArr Cert.KernelIdeal.Final.weightArr Cert.KernelIdeal.Final.memRow
    Cert.KernelIdeal.Final.thrRow Cert.KernelIdeal.Final.refcRow
  rw [Cert.KernelIdeal.Entry.spikes, Cert.KernelIdeal.Entry.weights]
  exact congr (congr (congr (congrArg Cert.Spec.fire rfl) (Cert.KernelIdeal.Entry.membrane m ρ c 0 (i 1)))
    (Cert.KernelIdeal.Entry.threshold m ρ c 0 (i 1))) (Cert.KernelIdeal.Entry.refractory m ρ c 0 (i 1))

end Cert.KernelIdeal.Bridge

end
-- ==== Proof.RefSide.lean ====
/-
  The reference program's result is the spiking layer of the specification.

  The reference ternarises the synaptic states by a nested choice (`1` above `1`, else `-1` below `-1`, else `0`),
  contracts each batch row of spikes with each neuron's row of weights, multiplies that current by `1 - [refc > 0]`,
  adds the membrane times the decay factor, and compares with the threshold. Read at one index `(b, o)` this is exactly
  the layer's `fire` of the current into neuron `o` from batch row `b`: the per-neuron vectors are read at `o`, the
  spikes at `(b, k)`, the states at `(o, k)`, and the nested choice is the ternary weight.
-/
import proofs.«163502_j22660247454003_2_alg».proof.Proof.Gen.ReferenceIdeal.Read
import proofs.«163502_j22660247454003_2_alg».proof.Proof.Spec

noncomputable section

namespace Cert.RefSide

open Cert.ReferenceIdeal Cert.ReferenceIdeal.Read Idealize.ShloMosaic Idealize.ShloMosaic.ValueIdx

/-! ## Where each operand is read for the result at index `(b, o)` -/

/-- The contraction reads the spikes at `(b, k)`. -/
theorem spike_at (i : S4096x4096.Idx) (k : Fin 4096) : lidx_main_v8 i k = ix2 (n0 := 4096) (n1 := 4096) (i 0) k :=
  funext fun a => Fin.ext (by match a with | ⟨0, _⟩ => rfl | ⟨1, _⟩ => rfl)

/-- It reads the transposed weights at `(k, o)`, which is the states' `(o, k)`. -/
theorem state_at (i : S4096x4096.Idx) (k : Fin 4096) :
    idx_main_v7 (ridx_main_v8 i k) = ix2 (n0 := 4096) (n1 := 4096) (i 1) k :=
  funext fun a => Fin.ext (by match a with | ⟨0, _⟩ => rfl | ⟨1, _⟩ => rfl)

/-- The membrane vector, spread over the batch rows, is read at neuron `o`. -/
theorem membrane_at (i : S4096x4096.Idx) : idx_main_v17 (idx_main_v20 i) = ix1 (n := 4096) (i 1) :=
  funext fun a => Fin.ext (by match a with | ⟨0, _⟩ => rfl)

/-- So is the threshold vector. -/
theorem threshold_at (i : S4096x4096.Idx) : idx_main_v22 (idx_main_v23 i) = ix1 (n := 4096) (i 1) :=
  funext fun a => Fin.ext (by match a with | ⟨0, _⟩ => rfl)

/-- So is the refractory count. -/
theorem refractory_at (i : S4096x4096.Idx) : idx_main_v12 (idx_main_v15 i) = ix1 (n := 4096) (i 1) :=
  funext fun a => Fin.ext (by match a with | ⟨0, _⟩ => rfl)

/-! ## The weights -/

/-- The reference's weight at a position of the transposed array is the ternary weight of the state it is read from:
    its nested choice between `1`, `-1` and `0` is the difference of the two indicators. -/
theorem weight_at (x1 : (⟨S4096x4096, .f32⟩ : BufTy).Contents (Elt Ideal)) (j : S4096x4096.Idx) :
    val_main_v7 (F := Ideal) x1 j = Cert.Spec.tern (x1 (idx_main_v7 j)) := by
  rw [val_main_v7_apply, val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply]
  exact Cert.Spec.tern_eq_select _

/-! ## The layer -/

/-- THE REFERENCE'S RESULT is the layer of the specification, as one function of the five arguments. -/
theorem reference_eq (x0 x1 : (⟨S4096x4096, .f32⟩ : BufTy).Contents (Elt Ideal))
    (x2 x3 x4 : (⟨S4096, .f32⟩ : BufTy).Contents (Elt Ideal)) :
    val_main_v25 (F := Ideal) x0 x1 x2 x3 x4 = Cert.Spec.layer x0 x1 x2 x3 x4 := by
  funext i
  rw [val_main_v25_apply, val_main_v24_apply, val_main_v21_apply, val_main_v20_apply, val_main_v19_apply,
    val_main_v17_apply, val_main_v18_apply, val_main_cst_6_apply, val_main_v16_apply, val_main_v8_apply,
    val_main_v15_apply, val_main_v14_apply, val_main_v13_apply, val_main_cst_5_apply, val_main_v12_apply,
    val_main_v11_apply, val_main_v10_apply, val_main_v9_apply, val_main_cst_4_apply, val_main_v23_apply,
    val_main_v22_apply]
  rw [membrane_at, threshold_at, refractory_at]
  simp only [weight_at, spike_at, state_at]
  rfl

end Cert.RefSide

end
-- ==== Proof.lean ====
/-
  The certificate of a spiking layer: a Pallas pair of regions against its plain reference.

  The kernel ternarises the synaptic states once (a pointwise region over eight runs of rows), then a matrix region
  accumulates `spikes · weightsᵀ` block by block over four contraction steps into the output block itself and, at the
  last step, replaces the sum by the neurons' firing decisions: `[mem·d + current·(1 - [refc > 0]) ≥ thr]`. The
  reference computes the same with one product over all 4096 contraction positions. Over the extended reals a change
  of float format is the identity and addition is commutative and associative, so the four partial products added in
  order from zero are the one sum; the two spellings of the ternary weight (a difference of two indicators, a nested
  choice) agree at every extended real; and both sides use the same literals in the same order. No finiteness of the
  inputs is needed for the equality. The ledger of the idealization is empty. The three frames are the generated
  ones (the reference's is its generated run with the result dropped).
-/
import proofs.«163502_j22660247454003_2_alg».proof.Defs
import proofs.«163502_j22660247454003_2_alg».proof.Proof.Gen.Kernel
import proofs.«163502_j22660247454003_2_alg».proof.Proof.Gen.Kernel.Skeleton
import proofs.«163502_j22660247454003_2_alg».proof.Proof.Gen.Kernel.Launch
import proofs.«163502_j22660247454003_2_alg».proof.Proof.Gen.Kernel.Points
import proofs.«163502_j22660247454003_2_alg».proof.Proof.Gen.Kernel.Frame
import proofs.«163502_j22660247454003_2_alg».proof.Proof.Gen.KernelIdeal
import proofs.«163502_j22660247454003_2_alg».proof.Proof.Gen.KernelIdeal.Skeleton
import proofs.«163502_j22660247454003_2_alg».proof.Proof.Gen.KernelIdeal.Launch
import proofs.«163502_j22660247454003_2_alg».proof.Proof.Gen.KernelIdeal.Points
import proofs.«163502_j22660247454003_2_alg».proof.Proof.Gen.KernelIdeal.Frame
import proofs.«163502_j22660247454003_2_alg».proof.Proof.Gen.ReferenceIdeal
import proofs.«163502_j22660247454003_2_alg».proof.Proof.Gen.ReferenceIdeal.Run
import proofs.«163502_j22660247454003_2_alg».proof.Proof.Gen.ReferenceIdeal.Read
import proofs.«163502_j22660247454003_2_alg».proof.Proof.Gen.Pre_finite_inputs
import Idealize.ShloMosaic.Adequacy
import Idealize.ShloMosaic.Init

import proofs.«163502_j22660247454003_2_alg».proof.Proof.Bridge
import proofs.«163502_j22660247454003_2_alg».proof.Proof.RefSide

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the layer of the specification applied to arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W3 m ρ c (Proc.devRef .tc Cert.KernelIdeal.main_v5),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact ((Cert.ReferenceIdeal.Read.val_main_v25_eq _ _ _ _ _).trans (Cert.RefSide.reference_eq _ _ _ _ _)).trans
    (Cert.KernelIdeal.Bridge.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
